-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x36x2048 : Shape := ⟨3, ![32, 36, 2048]⟩
abbrev S32x1024 : Shape := ⟨2, ![32, 1024]⟩
abbrev S5120x1024 : Shape := ⟨2, ![5120, 1024]⟩
abbrev S_ : Shape := ⟨0, ![]⟩
abbrev S1024 : Shape := ⟨1, ![1024]⟩
abbrev S1024x1024 : Shape := ⟨2, ![1024, 1024]⟩

class Facts : Prop where
  bcast_S_S32x36x2048 : S_.BroadcastsInDim S32x36x2048 (![] : Fin 0 → Fin S32x36x2048.rank)
  reducesTo_S32x36x2048_S_d0_1_2 : S32x36x2048.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S5120x1024 : S_.BroadcastsInDim S5120x1024 (![] : Fin 0 → Fin S5120x1024.rank)
  reducesTo_S5120x1024_S_d0_1 : S5120x1024.ReducesTo [0, 1] S_
  reducesTo_S_S_d : S_.ReducesTo [] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v31 : IVec S_ 1) (main_v32 : FVec F S1024 .f32) (main_cst_12 : FVec F S_ .f32) : IVec S_ 1 :=
  let main_v33 : FVec F S1024 .f32 := broadcastInDim S1024 ![] bcast_S_S1024 main_cst_12
  let main_v34 : IVec S1024 1 := cmpf .olt main_v32 main_v33
  let main_c_13 : IVec S_ 1 := constantI S_ 1 1#1
  let main_v35 : IVec S_ 1 := (fun x v => Host.reduce IntOp.andi x v reducesTo_S1024_S_d0 h_S_) main_v34 main_c_13
  let main_v36 : IVec S_ 1 := andi main_v31 main_v35
  main_v36

def fn_part1 {F : FTy → Type} [FloatOps F] (main_arg4 : FVec F S1024 .f32) (main_arg5 : FVec F S1024x1024 .f32) (main_arg6 : FVec F S_ .f32) (main_arg7 : FVec F S1024 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v17 main_v21
  let main_v23 : FVec F S1024x1024 .f32 := Host.absf main_arg5
  let main_cst_8 : FVec F S_ .f32 := constant S_ .f32 0x7F800000#32
  let main_v24 : FVec F S1024x1024 .f32 := broadcastInDim S1024x1024 ![] bcast_S_S1024x1024 main_cst_8
  let main_v25 : IVec S1024x1024 1 := cmpf .olt main_v23 main_v24
  let main_c_9 : IVec S_ 1 := constantI S_ 1 1#1
  let main_v26 : IVec S_ 1 := (fun x v => Host.reduce IntOp.andi x v reducesTo_S1024x1024_S_d0_1 h_S_) main_v25 main_c_9
  let main_v27 : IVec S_ 1 := andi main_v22 main_v26
  let main_v28 : FVec F S_ .f32 := Host.absf main_arg6
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S1024 .f32 := Host.absf main_arg7
  let main_cst_12 : FVec F S_ .f32 := constant S_ .f32 0x7F800000#32
  fn_part2 (F := F) main_v31 main_v32 main_cst_12

def fn {F : FTy → Type} [FloatOps F] (main_arg0 : FVec F S32x36x2048 .f32) (main_arg1 : FVec F S32x1024 .f32) (main_arg2 : FVec F S5120x1024 .f32) (main_arg3 : FVec F S_ .f32) (main_arg4 : FVec F S1024 .f32) (main_arg5 : FVec F S1024x1024 .f32) (main_arg6 : FVec F S_ .f32) (main_arg7 : FVec F S1024 .f32) : IVec S_ 1 :=
  let main_v0 : FVec F S32x36x2048 .f32 := Host.absf main_arg0
  let main_cst : FVec F S_ .f32 := constant S_ .f32 0x7F800000#32
  let main_v1 : FVec F S32x36x2048 .f32 := broadcastInDim S32x36x2048 ![] bcast_S_S32x36x2048 main_cst
  let main_v2 : IVec S32x36x2048 1 := cmpf .olt main_v0 main_v1
  let main_c : IVec S_ 1 := constantI S_ 1 1#1
  let main_v3 : IVec S_ 1 := (fun x v => Host.reduce IntOp.andi x v reducesTo_S32x36x2048_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S5120x1024 .f32 := Host.absf main_arg2
  let main_cst_2 : FVec F S_ .f32 := constant S_ .f32 0x7F800000#32
  let main_v10 : FVec F S5120x1024 .f32 := broadcastInDim S5120x1024 ![] bcast_S_S5120x1024 main_cst_2
  let main_v11 : IVec S5120x1024 1 := cmpf .olt main_v9 main_v10
  let main_c_3 : IVec S_ 1 := constantI S_ 1 1#1
  let main_v12 : IVec S_ 1 := (fun x v => Host.reduce IntOp.andi x v reducesTo_S5120x1024_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg4 main_arg5 main_arg6 main_arg7 main_v13 main_v15 main_c_5
-- ==== Kernel.lean ====
abbrev S32x36x2048 : Shape := ⟨3, ![32, 36, 2048]⟩
abbrev S32x1024 : Shape := ⟨2, ![32, 1024]⟩
abbrev S5120x1024 : Shape := ⟨2, ![5120, 1024]⟩
abbrev S_ : Shape := ⟨0, ![]⟩
abbrev S1024 : Shape := ⟨1, ![1024]⟩
abbrev S1024x1024 : Shape := ⟨2, ![1024, 1024]⟩
abbrev S2048x1024 : Shape := ⟨2, ![2048, 1024]⟩
abbrev S32x1x1024 : Shape := ⟨3, ![32, 1, 1024]⟩
abbrev S1x1024 : Shape := ⟨2, ![1, 1024]⟩
abbrev S1x36x2048 : Shape := ⟨3, ![1, 36, 2048]⟩
abbrev S1x1x1024 : Shape := ⟨3, ![1, 1, 1024]⟩
abbrev S36x2048 : Shape := ⟨2, ![36, 2048]⟩
abbrev S36x1024 : Shape := ⟨2, ![36, 1024]⟩
abbrev S1x36x1024 : Shape := ⟨3, ![1, 36, 1024]⟩
abbrev S36x1x1024 : Shape := ⟨3, ![36, 1, 1024]⟩
abbrev S36x36x1024 : Shape := ⟨3, ![36, 36, 1024]⟩
abbrev S1296x1024 : Shape := ⟨2, ![1296, 1024]⟩

abbrev nBuf : Space → Nat
  | .hbm => 36
  | .vmem => 12
  | .smem => 0
  | _ => 0

abbrev bufTy : (tb : Table) → Fin (tcTables nBuf tb) → BufTy
  | .hbm, ⟨0, _⟩ => ⟨S32x36x2048, .f32⟩
  | .hbm, ⟨1, _⟩ => ⟨S32x1024, .f32⟩
  | .hbm, ⟨2, _⟩ => ⟨S5120x1024, .f32⟩
  | .hbm, ⟨3, _⟩ => ⟨S_, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S5120x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S5120x1024, .f32⟩
  | .hbm, ⟨14, _⟩ => ⟨S5120x1024, .f32⟩
  | .hbm, ⟨15, _⟩ => ⟨S1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S2048x1024, .f32⟩
  | .hbm, ⟨23, _⟩ => ⟨S2048x1024, .f32⟩
  | .hbm, ⟨24, _⟩ => ⟨S1024x1024, .f32⟩
  | .hbm, ⟨25, _⟩ => ⟨S32x36x2048, .bf16⟩
  | .hbm, ⟨26, _⟩ => ⟨S32x1024, .bf16⟩
  | .hbm, ⟨27, _⟩ => ⟨S32x1x1024, .bf16⟩
  | .hbm, ⟨28, _⟩ => ⟨S2048x1024, .bf16⟩
  | .hbm, ⟨29, _⟩ => ⟨S2048x1024, .bf16⟩
  | .hbm, ⟨30, _⟩ => ⟨S1024x1024, .bf16⟩
  | .hbm, ⟨31, _⟩ => ⟨S1024x1024, .bf16⟩
  | .hbm, ⟨32, _⟩ => ⟨S1x1024, .f32⟩
  | .hbm, ⟨33, _⟩ => ⟨S1x1024, .f32⟩
  | .hbm, ⟨34, _⟩ => ⟨S32x1x1024, .f32⟩
  | .hbm, ⟨35, _⟩ => ⟨S32x1024, .f32⟩
  | .local _ .vmem, ⟨0, _⟩ => ⟨S1x36x2048, .bf16⟩
  | .local _ .vmem, ⟨1, _⟩ => ⟨S1x36x2048, .bf16⟩
  | .local _ .vmem, ⟨2, _⟩ => ⟨S1x1x1024, .bf16⟩
  | .local _ .vmem, ⟨3, _⟩ => ⟨S1x1x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | _, _ => ⟨S32x36x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x36x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  reducesTo_S5120x1024_S_d0_1 : S5120x1024.ReducesTo [0, 1] S_
  h_S_ : 0 < S_.numel
  bcast_S_S5120x1024 : S_.BroadcastsInDim S5120x1024 (![] : Fin 0 → Fin S5120x1024.rank)
  reducesTo_S1024x1024_S_d0_1 : S1024x1024.ReducesTo [0, 1] S_
  bcast_S_S1024x1024 : S_.BroadcastsInDim S1024x1024 (![] : Fin 0 → Fin S1024x1024.rank)
  slices_S5120x1024_S2048x1024_0_0 : S5120x1024.Slices ![0, 0] S2048x1024
  slices_S5120x1024_S2048x1024_2048_0 : S5120x1024.Slices ![2048, 0] S2048x1024
  slices_S5120x1024_S1024x1024_4096_0 : S5120x1024.Slices ![4096, 0] S1024x1024
  bitsLt_bf16_f32 : FTy.bits .bf16 < FTy.bits .f32
  shapeCasts_S32x1024_S32x1x1024 : S32x1024.ShapeCasts S32x1x1024
  shapeCasts_S1024_S1x1024 : S1024.ShapeCasts S1x1024
  inb_S1x36x2048_S1x36x2048_0_0_0 : ∀ a, (![0, 0, 0] : Fin 3 → Nat) a + S1x36x2048.size a ≤ S1x36x2048.size a
  h_S1x36x2048 : 0 < S1x36x2048.numel
  shapeCasts_S1x36x2048_S36x2048 : S1x36x2048.ShapeCasts S36x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S36x1024_S1x36x1024 : S36x1024.ShapeCasts S1x36x1024
  shapeCasts_S36x1024_S36x1x1024 : S36x1024.ShapeCasts S36x1x1024
  broadcasts_S1x36x1024_S36x36x1024 : S1x36x1024.Broadcasts S36x36x1024
  broadcasts_S36x1x1024_S36x36x1024 : S36x1x1024.Broadcasts S36x36x1024
  shapeCasts_S1x1024_S1x1x1024 : S1x1024.ShapeCasts S1x1x1024
  broadcasts_S1x1x1024_S36x36x1024 : S1x1x1024.Broadcasts S36x36x1024
  shapeCasts_S36x36x1024_S1296x1024 : S36x36x1024.ShapeCasts S1296x1024
  broadcasts_S1x1024_S1296x1024 : S1x1024.Broadcasts S1296x1024
  reduces_S1296x1024_S1024 : S1296x1024.Reduces [0] S1024
  shapeCasts_S32x1x1024_S32x1024 : S32x1x1024.ShapeCasts S32x1024
  dot_S36x2048_S2048x1024_S36x1024_1_0_0_1_n_n_wf : DotDims.WF S36x2048 S2048x1024 S36x1024 [1] [0] [0] [1] [] []
  dot_S1x1024_S1024x1024_S1x1024_1_0_0_1_n_n_wf : DotDims.WF S1x1024 S1024x1024 S1x1024 [1] [0] [0] [1] [] []
  dot_S1296x1024_S1024x1024_S1296x1024_1_0_0_1_n_n_wf : DotDims.WF S1296x1024 S1024x1024 S1296x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x36x2048.size a ≤ S32x36x2048.size a
  hwx0_0 : ∀ i : grid0.Coords, EltTy.bits .bf16 = 32 ∨ (Rect.block (s := S32x36x2048) S1x36x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .bf16 = 32 ∨ (Rect.block (s := S32x1x1024) S1x1x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S32x1x1024.size a
  hwx0_8 : ∀ i : grid0.Coords, EltTy.bits .f32 = 32 ∨ (Rect.block (s := S32x1x1024) S1x1x1024.size (cc0_transform_8 i) (hinb0_8 i)).WholeWords (EltTy.packing .f32)

variable [Facts₀]

def dot_S36x2048_S2048x1024_S36x1024_1_0_0_1_n_n : DotDims S36x2048 S2048x1024 S36x1024 where
  lhsContracting := [1]
  rhsContracting := [0]
  lhsNonContracting := [0]
  rhsNonContracting := [1]
  lhsBatch := []
  rhsBatch := []
  wf := dot_S36x2048_S2048x1024_S36x1024_1_0_0_1_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1296x1024_S1024x1024_S1296x1024_1_0_0_1_n_n : DotDims S1296x1024 S1024x1024 S1296x1024 where
  lhsContracting := [1]
  rhsContracting := [0]
  lhsNonContracting := [0]
  rhsNonContracting := [1]
  lhsBatch := []
  rhsBatch := []
  wf := dot_S1296x1024_S1024x1024_S1296x1024_1_0_0_1_n_n_wf

abbrev win0_0 : Pipeline.Window sig grid0 :=
  Pipeline.Window.ofSpec (Memref.whole main_v11) S1x36x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x36x2048 : Shape := ⟨3, ![32, 36, 2048]⟩
abbrev S32x1024 : Shape := ⟨2, ![32, 1024]⟩
abbrev S5120x1024 : Shape := ⟨2, ![5120, 1024]⟩
abbrev S_ : Shape := ⟨0, ![]⟩
abbrev S1024 : Shape := ⟨1, ![1024]⟩
abbrev S1024x1024 : Shape := ⟨2, ![1024, 1024]⟩
abbrev S2048x1024 : Shape := ⟨2, ![2048, 1024]⟩
abbrev S32x36x1024 : Shape := ⟨3, ![32, 36, 1024]⟩
abbrev S32x1x36x1024 : Shape := ⟨4, ![32, 1, 36, 1024]⟩
abbrev S32x36x1x1024 : Shape := ⟨4, ![32, 36, 1, 1024]⟩
abbrev S32x36x36x1024 : Shape := ⟨4, ![32, 36, 36, 1024]⟩
abbrev S32x1x1x1024 : Shape := ⟨4, ![32, 1, 1, 1024]⟩
abbrev S1x1x1x1024 : Shape := ⟨4, ![1, 1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S32x36x2048, .f32⟩
  | .hbm, ⟨1, _⟩ => ⟨S32x1024, .f32⟩
  | .hbm, ⟨2, _⟩ => ⟨S5120x1024, .f32⟩
  | .hbm, ⟨3, _⟩ => ⟨S_, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S5120x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S5120x1024, .f32⟩
  | .hbm, ⟨14, _⟩ => ⟨S5120x1024, .f32⟩
  | .hbm, ⟨15, _⟩ => ⟨S1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S2048x1024, .f32⟩
  | .hbm, ⟨23, _⟩ => ⟨S2048x1024, .f32⟩
  | .hbm, ⟨24, _⟩ => ⟨S1024x1024, .f32⟩
  | .hbm, ⟨25, _⟩ => ⟨S32x36x1024, .f32⟩
  | .hbm, ⟨26, _⟩ => ⟨S32x36x1024, .f32⟩
  | .hbm, ⟨27, _⟩ => ⟨S32x1024, .f32⟩
  | .hbm, ⟨28, _⟩ => ⟨S32x1x36x1024, .f32⟩
  | .hbm, ⟨29, _⟩ => ⟨S32x36x1x1024, .f32⟩
  | .hbm, ⟨30, _⟩ => ⟨S32x36x36x1024, .f32⟩
  | .hbm, ⟨31, _⟩ => ⟨S32x36x36x1024, .f32⟩
  | .hbm, ⟨32, _⟩ => ⟨S32x36x36x1024, .f32⟩
  | .hbm, ⟨33, _⟩ => ⟨S32x1x1x1024, .f32⟩
  | .hbm, ⟨34, _⟩ => ⟨S32x36x36x1024, .f32⟩
  | .hbm, ⟨35, _⟩ => ⟨S32x36x36x1024, .f32⟩
  | .hbm, ⟨36, _⟩ => ⟨S1x1x1x1024, .f32⟩
  | .hbm, ⟨37, _⟩ => ⟨S32x36x36x1024, .f32⟩
  | .hbm, ⟨38, _⟩ => ⟨S32x36x36x1024, .f32⟩
  | .hbm, ⟨39, _⟩ => ⟨S_, .f32⟩
  | .hbm, ⟨40, _⟩ => ⟨S32x36x36x1024, .f32⟩
  | .hbm, ⟨41, _⟩ => ⟨S32x36x36x1024, .f32⟩
  | .hbm, ⟨42, _⟩ => ⟨S32x36x36x1024, .f32⟩
  | .hbm, ⟨43, _⟩ => ⟨S1x1x1x1024, .f32⟩
  | .hbm, ⟨44, _⟩ => ⟨S32x36x36x1024, .f32⟩
  | .hbm, ⟨45, _⟩ => ⟨S32x36x36x1024, .f32⟩
  | .hbm, ⟨46, _⟩ => ⟨S_, .f32⟩
  | .hbm, ⟨47, _⟩ => ⟨S32x36x36x1024, .f32⟩
  | .hbm, ⟨48, _⟩ => ⟨S32x36x36x1024, .f32⟩
  | .hbm, ⟨49, _⟩ => ⟨S_, .f32⟩
  | .hbm, ⟨50, _⟩ => ⟨S32x1024, .f32⟩
  | _, _ => ⟨S32x36x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call2_cst : Ref sig .tc := ⟨.hbm, 39, rfl⟩
abbrev main_call2_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call3_cst : Ref sig .tc := ⟨.hbm, 46, rfl⟩
abbrev main_call3_v0 : Ref sig .tc := ⟨.hbm, 47, rfl⟩
abbrev main_v30 : Ref sig .tc := ⟨.hbm, 48, rfl⟩
abbrev main_cst : Ref sig .tc := ⟨.hbm, 49, rfl⟩
abbrev main_v31 : Ref sig .tc := ⟨.hbm, 50, rfl⟩

abbrev nD : Nat := 1
abbrev τ : Topo := Topo.v7x

variable {F : FTy → Type} [FloatOps F]

class Facts₀ : Prop where
  reducesTo_S5120x1024_S_d0_1 : S5120x1024.ReducesTo [0, 1] S_
  h_S_ : 0 < S_.numel
  bcast_S_S5120x1024 : S_.BroadcastsInDim S5120x1024 (![] : Fin 0 → Fin S5120x1024.rank)
  reducesTo_S1024x1024_S_d0_1 : S1024x1024.ReducesTo [0, 1] S_
  bcast_S_S1024x1024 : S_.BroadcastsInDim S1024x1024 (![] : Fin 0 → Fin S1024x1024.rank)
  slices_S5120x1024_S2048x1024_0_0 : S5120x1024.Slices ![0, 0] S2048x1024
  slices_S5120x1024_S2048x1024_2048_0 : S5120x1024.Slices ![2048, 0] S2048x1024
  slices_S5120x1024_S1024x1024_4096_0 : S5120x1024.Slices ![4096, 0] S1024x1024
  bcast_S32x36x1024_S32x1x36x1024_0_2_3 : S32x36x1024.BroadcastsInDim S32x1x36x1024 (![0, 2, 3] : Fin 3 → Fin S32x1x36x1024.rank)
  bcast_S32x36x1024_S32x36x1x1024_0_1_3 : S32x36x1024.BroadcastsInDim S32x36x1x1024 (![0, 1, 3] : Fin 3 → Fin S32x36x1x1024.rank)
  bcast_S32x1x36x1024_S32x36x36x1024_0_1_2_3 : S32x1x36x1024.BroadcastsInDim S32x36x36x1024 (![0, 1, 2, 3] : Fin 4 → Fin S32x36x36x1024.rank)
  bcast_S32x36x1x1024_S32x36x36x1024_0_1_2_3 : S32x36x1x1024.BroadcastsInDim S32x36x36x1024 (![0, 1, 2, 3] : Fin 4 → Fin S32x36x36x1024.rank)
  bcast_S32x1024_S32x1x1x1024_0_3 : S32x1024.BroadcastsInDim S32x1x1x1024 (![0, 3] : Fin 2 → Fin S32x1x1x1024.rank)
  bcast_S32x1x1x1024_S32x36x36x1024_0_1_2_3 : S32x1x1x1024.BroadcastsInDim S32x36x36x1024 (![0, 1, 2, 3] : Fin 4 → Fin S32x36x36x1024.rank)
  bcast_S1024_S1x1x1x1024_3 : S1024.BroadcastsInDim S1x1x1x1024 (![3] : Fin 1 → Fin S1x1x1x1024.rank)
  bcast_S1x1x1x1024_S32x36x36x1024_0_1_2_3 : S1x1x1x1024.BroadcastsInDim S32x36x36x1024 (![0, 1, 2, 3] : Fin 4 → Fin S32x36x36x1024.rank)
  bcast_S_S32x36x36x1024 : S_.BroadcastsInDim S32x36x36x1024 (![] : Fin 0 → Fin S32x36x36x1024.rank)
  reducesTo_S32x36x36x1024_S32x1024_d1_2 : S32x36x36x1024.ReducesTo [1, 2] S32x1024
  dot_S32x36x2048_S2048x1024_S32x36x1024_2_0_01_1_n_n_wf : DotDims.WF S32x36x2048 S2048x1024 S32x36x1024 [2] [0] [0, 1] [1] [] []
  dot_S32x1024_S1024x1024_S32x1024_1_0_0_1_n_n_wf : DotDims.WF S32x1024 S1024x1024 S32x1024 [1] [0] [0] [1] [] []
  dot_S32x36x36x1024_S1024x1024_S32x36x36x1024_3_0_012_1_n_n_wf : DotDims.WF S32x36x36x1024 S1024x1024 S32x36x36x1024 [3] [0] [0, 1, 2] [1] [] []

variable [Facts₀]

def dot_S32x36x2048_S2048x1024_S32x36x1024_2_0_01_1_n_n : DotDims S32x36x2048 S2048x1024 S32x36x1024 where
  lhsContracting := [2]
  rhsContracting := [0]
  lhsNonContracting := [0, 1]
  rhsNonContracting := [1]
  lhsBatch := []
  rhsBatch := []
  wf := dot_S32x36x2048_S2048x1024_S32x36x1024_2_0_01_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x36x36x1024_S1024x1024_S32x36x36x1024_3_0_012_1_n_n : DotDims S32x36x36x1024 S1024x1024 S32x36x36x1024 where
  lhsContracting := [3]
  rhsContracting := [0]
  lhsNonContracting := [0, 1, 2]
  rhsNonContracting := [1]
  lhsBatch := []
  rhsBatch := []
  wf := dot_S32x36x36x1024_S1024x1024_S32x36x36x1024_3_0_012_1_n_n_wf

class Facts : Prop extends Facts₀ where

variable [Facts]
-- ==== Proof.PairSum.lean ====
/-
  The function both programs compute, stated once over plain coordinates.

  For one batch element the inputs are the 36 object rows `xv j k`, the question row `xq k`, the three row blocks
  `wa`, `wb`, `wc` of the (weight-normalised) first-layer matrix, the second-layer matrix `w2` and the two biases.
  For an ordered pair of objects `(i, j)` the hidden vector is

      hid i j h = max (((Σ_k xv j k · wa k h) + (Σ_k xv i k · wb k h)) + ((Σ_k xq k · wc k h) + c1 h)) 0

  the pair's output is `max ((Σ_h hid i j h · w2 h g) + c2 g) 0`, and the result at column `g` is the sum of the
  pair outputs over all 36 · 36 ordered pairs.  The zero of the two rectifiers is kept as the f32 word both programs
  spell, so it is never evaluated.

  The only arithmetic facts used anywhere are that addition on the extended reals is associative (the reference adds
  the question term and then the bias, the kernel adds their sum) and that a finite sum may be re-indexed along a
  bijection (the kernel sums over the 1296 rows `r = 36·i + j` of the flattened pair table, the reference over the
  pairs themselves).
-/
import Idealize.ShloMosaic.PureOps.Ideal
import Idealize.ShloMosaic.PureOps.Ideal.Laws
import Idealize.ShloMosaic.Lib.ValueIdx

noncomputable section

namespace Cert.PairSum

open Idealize.ShloMosaic Idealize.ShloMosaic.ValueIdx

/-- The zero both rectifiers compare with, as the f32 word the programs print. -/
abbrev zeroWord : EReal := Ideal.ofBits .f32 0x00000000#32

/-- The hidden activation of the ordered pair `(i, j)` at hidden unit `h`. -/
def hid (xv : Fin 36 → Fin 2048 → EReal) (xq : Fin 1024 → EReal) (wa wb : Fin 2048 → Fin 1024 → EReal)
    (wc : Fin 1024 → Fin 1024 → EReal) (c1 : Fin 1024 → EReal) (i j : Fin 36) (h : Fin 1024) : EReal :=
  max (((∑ k : Fin 2048, xv j k * wa k h) + (∑ k : Fin 2048, xv i k * wb k h))
        + ((∑ k : Fin 1024, xq k * wc k h) + c1 h)) zeroWord

/-- The rectified second-layer output of the ordered pair `(i, j)` at column `g`. -/
def pairOut (xv : Fin 36 → Fin 2048 → EReal) (xq : Fin 1024 → EReal) (wa wb : Fin 2048 → Fin 1024 → EReal)
    (wc w2 : Fin 1024 → Fin 1024 → EReal) (c1 c2 : Fin 1024 → EReal) (i j : Fin 36) (g : Fin 1024) : EReal :=
  max ((∑ h : Fin 1024, hid xv xq wa wb wc c1 i j h * w2 h g) + c2 g) zeroWord

/-- One batch element's result at column `g`: the pair outputs summed over all ordered pairs. -/
def pooled (xv : Fin 36 → Fin 2048 → EReal) (xq : Fin 1024 → EReal) (wa wb : Fin 2048 → Fin 1024 → EReal)
    (wc w2 : Fin 1024 → Fin 1024 → EReal) (c1 c2 : Fin 1024 → EReal) (g : Fin 1024) : EReal :=
  ∑ p : Fin 36 × Fin 36, pairOut xv xq wa wb wc w2 c1 c2 p.1 p.2 g

/-- The whole result array `[32, 1024]` as one function of the six arrays the computation reads: batch element `b`
    uses rows `(b, ·, ·)` of the objects and row `b` of the questions. -/
def G (v : (⟨3, ![32, 36, 2048]⟩ : Shape).Idx → EReal) (q : (⟨2, ![32, 1024]⟩ : Shape).Idx → EReal)
    (Wa Wb : (⟨2, ![2048, 1024]⟩ : Shape).Idx → EReal) (Wc W2 : (⟨2, ![1024, 1024]⟩ : Shape).Idx → EReal)
    (b1 b2 : (⟨1, ![1024]⟩ : Shape).Idx → EReal) : (⟨2, ![32, 1024]⟩ : Shape).Idx → EReal := fun o =>
  pooled (fun j k => v (ix3 (o 0) j k)) (fun k => q (ix2 (o 0) k)) (fun k h => Wa (ix2 k h)) (fun k h => Wb (ix2 k h))
    (fun k h => Wc (ix2 k h)) (fun h g => W2 (ix2 h g)) (fun h => b1 (ix1 h)) (fun g => b2 (ix1 g)) (o 1)

/-- A sum over the 1296 rows `r` of the flattened pair table, row `r` holding the pair `(r / 36, r % 36)`, is the sum
    over the pairs. -/
theorem sum_rows (f : Fin 36 → Fin 36 → EReal) :
    ∑ r : Fin 1296, f ⟨r.val / 36, by have := r.isLt; omega⟩ ⟨r.val % 36, Nat.mod_lt _ (by decide)⟩
      = ∑ p : Fin 36 × Fin 36, f p.1 p.2 :=
  Fintype.sum_equiv (finProdFinEquiv (m := 36) (n := 36)).symm _ _ (fun _ => rfl)

end Cert.PairSum

end
-- ==== Proof.ReferenceSum.lean ====
/-
  The reference's result is `PairSum.G`.

  Read one operation at a time (the generated read-at-an-index lemmas), the reference at output index `(b, g)` is
  the host's sum over the two pair axes of its `[32, 36, 36, 1024]` table, whose entry at `(b, i, j, g)` is the
  rectified second-layer output of the pair `(i, j)`.  Three things are proved here by hand:
  * the two-axis sum at `(b, g)` is the initial value plus the sum over the pairs `(i, j)` of the entry
    `(b, i, j, g)`: the indices that reduce to `(b, g)` are exactly those, one per pair;
  * the table's entry is `PairSum.pairOut` — the composed index functions of the broadcasts and contractions
    identified with plain coordinates, and the reference's `((pa + pb) + pq) + b1` regrouped by associativity;
  * the initial value is the zero word, which denotes `0`.
  The three row blocks of the normalised first-layer matrix and the normalised second-layer matrix are the stages
  `val_main_v8`, `val_main_v9`, `val_main_v10`, `val_main_v7`; they are never opened.
-/
import proofs.«151972_j23081154249002_1_alg».proof.Proof.Gen.ReferenceIdeal.Read
import proofs.«151972_j23081154249002_1_alg».proof.Proof.PairSum
import Idealize.ShloMosaic.PureOps.Reduce

noncomputable section

namespace Cert.ReferenceIdeal.PairValue

open Cert.ReferenceIdeal Cert.ReferenceIdeal.Gen Cert.ReferenceIdeal.Read Idealize.ShloMosaic Idealize.ShloMosaic.ValueIdx
open Cert.PairSum

/-- The host's sum over the two pair axes, read at `(b, g)`: the initial value plus the sum over the pairs. An index
    of the table reduces to `(b, g)` exactly when its first coordinate is `b` and its last is `g`. -/
theorem reduce_pairs (y : S32x36x36x1024.Idx → EReal) (init : EReal) (b : Fin 32) (g : Fin 1024) :
    Ideal.hostReduceAdd reducesTo_S32x36x36x1024_S32x1024_d1_2 y init (ix2 b g)
      = init + ∑ p : Fin 36 × Fin 36, y (ix4 b p.1 p.2 g) := by
  unfold Ideal.hostReduceAdd
  congr 1
  have hdrop : ∀ x : S32x36x36x1024.Idx, reducesTo_S32x36x36x1024_S32x1024_d1_2.drop x = ix2 (x 0) (x 3) := by
    intro x
    funext a
    apply Fin.ext
    match a with
    | ⟨0, _⟩ => exact Shape.ReducesTo.drop_apply_val_of_eq reducesTo_S32x36x36x1024_S32x1024_d1_2 x 0 0
    | ⟨1, _⟩ => exact Shape.ReducesTo.drop_apply_val_of_eq reducesTo_S32x36x36x1024_S32x1024_d1_2 x 1 3
  refine Finset.sum_bij' (fun x _ => (x 1, x 2)) (fun p _ => ix4 b p.1 p.2 g) (fun _ _ => Finset.mem_univ _) ?_ ?_ ?_ ?_
  · intro p _
    rw [Finset.mem_filter]
    exact ⟨Finset.mem_univ _, hdrop _⟩
  · intro x hx
    rw [Finset.mem_filter, hdrop] at hx
    have h0 : x 0 = b := congrFun hx.2 0
    have h3 : x 3 = g := congrFun hx.2 1
    funext a
    match a with
    | ⟨0, _⟩ => exact h0.symm
    | ⟨1, _⟩ => rfl
    | ⟨2, _⟩ => rfl
    | ⟨3, _⟩ => exact h3.symm
  · intro p _
    rfl
  · intro x hx
    rw [Finset.mem_filter, hdrop] at hx
    have h0 : x 0 = b := congrFun hx.2 0
    have h3 : x 3 = g := congrFun hx.2 1
    refine congrArg y (funext fun a => ?_)
    match a with
    | ⟨0, _⟩ => exact h0
    | ⟨1, _⟩ => rfl
    | ⟨2, _⟩ => rfl
    | ⟨3, _⟩ => exact h3

/-- The hidden table's entry at `(b, i, j, h)`: the reference's broadcasts read at plain coordinates — the first
    projection follows the SECOND pair axis `j`, the second the FIRST pair axis `i` — and its sum
    `((pa + pb) + pq) + b1` regrouped as `(pa + pb) + (pq + b1)`. -/
theorem hid_eq (x0 : S32x36x2048.Idx → EReal) (x1 : S32x1024.Idx → EReal) (x2 : S5120x1024.Idx → EReal) (x3 : S_.Idx → EReal)
    (x4 : S1024.Idx → EReal) (b : Fin 32) (i j : Fin 36) (h : Fin 1024) :
    val_main_v25 (F := Ideal) x0 x1 x2 x3 x4 (ix4 b i j h)
      = hid (fun j k => x0 (ix3 b j k)) (fun k => x1 (ix2 b k)) (fun k h => val_main_v8 (F := Ideal) x2 x3 (ix2 k h))
          (fun k h => val_main_v9 (F := Ideal) x2 x3 (ix2 k h)) (fun k h => val_main_v10 (F := Ideal) x2 x3 (ix2 k h))
          (fun h => x4 (ix1 h)) i j h := by
  have ea : ∀ k : Fin 2048, lidx_main_v11 (idx_main_v14 (idx_main_v16 (ix4 b i j h))) k = ix3 b j k := fun k =>
    funext fun a => Fin.ext (by match a with | ⟨0, _⟩ => rfl | ⟨1, _⟩ => rfl | ⟨2, _⟩ => rfl)
  have ea' : ∀ k : Fin 2048, ridx_main_v11 (idx_main_v14 (idx_main_v16 (ix4 b i j h))) k = ix2 k h := fun k =>
    funext fun a => Fin.ext (by match a with | ⟨0, _⟩ => rfl | ⟨1, _⟩ => rfl)
  have eb : ∀ k : Fin 2048, lidx_main_v12 (idx_main_v15 (idx_main_v17 (ix4 b i j h))) k = ix3 b i k := fun k =>
    funext fun a => Fin.ext (by match a with | ⟨0, _⟩ => rfl | ⟨1, _⟩ => rfl | ⟨2, _⟩ => rfl)
  have eb' : ∀ k : Fin 2048, ridx_main_v12 (idx_main_v15 (idx_main_v17 (ix4 b i j h))) k = ix2 k h := fun k =>
    funext fun a => Fin.ext (by match a with | ⟨0, _⟩ => rfl | ⟨1, _⟩ => rfl)
  have ec : ∀ k : Fin 1024, lidx_main_v13 (idx_main_v19 (idx_main_v20 (ix4 b i j h))) k = ix2 b k := fun k =>
    funext fun a => Fin.ext (by match a with | ⟨0, _⟩ => rfl | ⟨1, _⟩ => rfl)
  have ec' : ∀ k : Fin 1024, ridx_main_v13 (idx_main_v19 (idx_main_v20 (ix4 b i j h))) k = ix2 k h := fun k =>
    funext fun a => Fin.ext (by match a with | ⟨0, _⟩ => rfl | ⟨1, _⟩ => rfl)
  have ed : idx_main_v22 (idx_main_v23 (ix4 b i j h)) = ix1 h :=
    funext fun a => Fin.ext (by match a with | ⟨0, _⟩ => rfl)
  rw [val_main_v25_apply, val_main_v24_apply, val_main_v21_apply, val_main_v18_apply, val_main_v16_apply, val_main_v14_apply,
    val_main_v11_apply, val_main_v17_apply, val_main_v15_apply, val_main_v12_apply, val_main_v20_apply, val_main_v19_apply,
    val_main_v13_apply, val_main_v23_apply, val_main_v22_apply, val_main_call2_v0_apply, val_main_call2_cst_apply]
  simp only [ea, ea', eb, eb', ec, ec', ed, Ideal.addf_def, Ideal.maximumf_def, Ideal.ofBits_def]
  unfold hid
  rw [add_assoc]

/-- The second table's entry at `(b, i, j, g)` is the pair `(i, j)`'s rectified output at column `g`. -/
theorem pairOut_eq (x0 : S32x36x2048.Idx → EReal) (x1 : S32x1024.Idx → EReal) (x2 : S5120x1024.Idx → EReal) (x3 : S_.Idx → EReal)
    (x4 : S1024.Idx → EReal) (x5 : S1024x1024.Idx → EReal) (x6 : S_.Idx → EReal) (x7 : S1024.Idx → EReal)
    (b : Fin 32) (i j : Fin 36) (g : Fin 1024) :
    val_main_v30 (F := Ideal) x0 x1 x2 x3 x4 x5 x6 x7 (ix4 b i j g)
      = pairOut (fun j k => x0 (ix3 b j k)) (fun k => x1 (ix2 b k)) (fun k h => val_main_v8 (F := Ideal) x2 x3 (ix2 k h))
          (fun k h => val_main_v9 (F := Ideal) x2 x3 (ix2 k h)) (fun k h => val_main_v10 (F := Ideal) x2 x3 (ix2 k h))
          (fun h g => val_main_v7 (F := Ideal) x5 x6 (ix2 h g)) (fun h => x4 (ix1 h)) (fun g => x7 (ix1 g)) i j g := by
  have el : ∀ k : Fin 1024, lidx_main_v26 (ix4 b i j g) k = ix4 b i j k := fun k =>
    funext fun a => Fin.ext (by match a with | ⟨0, _⟩ => rfl | ⟨1, _⟩ => rfl | ⟨2, _⟩ => rfl | ⟨3, _⟩ => rfl)
  have er : ∀ k : Fin 1024, ridx_main_v26 (ix4 b i j g) k = ix2 k g := fun k =>
    funext fun a => Fin.ext (by match a with | ⟨0, _⟩ => rfl | ⟨1, _⟩ => rfl)
  have ed : idx_main_v27 (idx_main_v28 (ix4 b i j g)) = ix1 g :=
    funext fun a => Fin.ext (by match a with | ⟨0, _⟩ => rfl)
  rw [val_main_v30_apply, val_main_v29_apply, val_main_v26_apply, val_main_v28_apply, val_main_v27_apply,
    val_main_call3_v0_apply, val_main_call3_cst_apply]
  simp only [el, er, ed, hid_eq, Ideal.addf_def, Ideal.maximumf_def, Ideal.ofBits_def]
  rfl

/-- The host's two-axis sum of any table, from the zero word, read at `(b, g)`: the sum over the pairs. -/
theorem reduce_read (y : S32x36x36x1024.Idx → EReal) (b : Fin 32) (g : Fin 1024) :
    Host.reduceAdd (F := Ideal) (φ := .f32) y (val_main_cst (F := Ideal)) reducesTo_S32x36x36x1024_S32x1024_d1_2 h_S_ (ix2 b g)
      = ∑ p : Fin 36 × Fin 36, y (ix4 b p.1 p.2 g) := by
  simp only [Host.reduceAdd, Ideal.hostReduceAdd_def]
  rw [reduce_pairs, val_main_cst_apply, Ideal.ofBits_def, Ideal.ofBits_zero_f32, zero_add]

/-- The reference's result array is `PairSum.G` of the objects, the questions, the three row blocks of the normalised
    first-layer matrix, the normalised second-layer matrix and the two biases. -/
theorem result_eq (x0 : S32x36x2048.Idx → EReal) (x1 : S32x1024.Idx → EReal) (x2 : S5120x1024.Idx → EReal) (x3 : S_.Idx → EReal)
    (x4 : S1024.Idx → EReal) (x5 : S1024x1024.Idx → EReal) (x6 : S_.Idx → EReal) (x7 : S1024.Idx → EReal) :
    val_main_v31 (F := Ideal) x0 x1 x2 x3 x4 x5 x6 x7
      = G x0 x1 (val_main_v8 (F := Ideal) x2 x3) (val_main_v9 (F := Ideal) x2 x3) (val_main_v10 (F := Ideal) x2 x3)
          (val_main_v7 (F := Ideal) x5 x6) x4 x7 := by
  funext o
  obtain ⟨b, g, rfl⟩ : ∃ (b : Fin 32) (g : Fin 1024), o = ix2 b g := ⟨o 0, o 1, eq_ix2 o⟩
  unfold val_main_v31
  rw [reduce_read]
  unfold G pooled
  refine Finset.sum_congr rfl fun (p : Fin 36 × Fin 36) _ => ?_
  exact pairOut_eq x0 x1 x2 x3 x4 x5 x6 x7 b p.1 p.2 g

end Cert.ReferenceIdeal.PairValue

end
-- ==== Proof.Operands.lean ====
/-
  What the region finds in the arrays its windows stage, and which block each grid point takes.

  Before the region the program normalises the two weight matrices (each times its gain over its Frobenius norm),
  cuts the first into its three row blocks, and reshapes the questions and the two biases; the changes of float format
  are the identity on the extended reals.  So the eight input arrays at region entry are: the objects and (reshaped) the
  questions as launched; the three row blocks and the second matrix — the very stages the reference computes
  (`Read.val_main_v8`, `val_main_v9`, `val_main_v10`, `val_main_v7`, never opened); the two biases as single rows.

  Grid point `t` takes block `(t, 0, 0)` of the objects, of the questions and of the output, and the whole of every
  other array.
-/
import proofs.«151972_j23081154249002_1_alg».proof.Proof.Gen.KernelIdeal.Frame
import proofs.«151972_j23081154249002_1_alg».proof.Proof.Gen.ReferenceIdeal.Read
import Idealize.ShloMosaic.Lib.StableHlo.Run
import Idealize.ShloMosaic.Lib.Pipeline.Value

noncomputable section

namespace Cert.KernelIdeal.Operands

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-! ## The arrays at region entry -/

theorem entry_objects (c : Dev nD) :
    (V m c main_v11 : S32x36x2048.Idx → EReal) = m ((c : Thread nD τ).loc main_arg0) := by
  dsimp only [V, V0]
  simp only [hostOps0, hostOps0_1, hostOps0_2, hostOps0_3, List.flatten_cons, List.flatten_nil, List.append_nil, List.cons_append, List.nil_append]
  after_results
  rfl

theorem entry_questions (c : Dev nD) :
    (V m c main_v13 : S32x1x1024.Idx → EReal)
      = shapeCast S32x1x1024 (m ((c : Thread nD τ).loc main_arg1) : S32x1024.Idx → EReal) Gen.shapeCasts_S32x1024_S32x1x1024 := by
  dsimp only [V, V0]
  simp only [hostOps0, hostOps0_1, hostOps0_2, hostOps0_3, List.flatten_cons, List.flatten_nil, List.append_nil, List.cons_append, List.nil_append]
  after_results
  rfl

theorem entry_first_block (c : Dev nD) :
    (V m c main_v14 : S2048x1024.Idx → EReal)
      = Cert.ReferenceIdeal.Read.val_main_v8 (F := Ideal) (m ((c : Thread nD τ).loc main_arg2)) (m ((c : Thread nD τ).loc main_arg3)) := by
  dsimp only [V, V0]
  simp only [hostOps0, hostOps0_1, hostOps0_2, hostOps0_3, List.flatten_cons, List.flatten_nil, List.append_nil, List.cons_append, List.nil_append]
  after_results
  rfl

theorem entry_second_block (c : Dev nD) :
    (V m c main_v15 : S2048x1024.Idx → EReal)
      = Cert.ReferenceIdeal.Read.val_main_v9 (F := Ideal) (m ((c : Thread nD τ).loc main_arg2)) (m ((c : Thread nD τ).loc main_arg3)) := by
  dsimp only [V, V0]
  simp only [hostOps0, hostOps0_1, hostOps0_2, hostOps0_3, List.flatten_cons, List.flatten_nil, List.append_nil, List.cons_append, List.nil_append]
  after_results
  rfl

theorem entry_third_block (c : Dev nD) :
    (V m c main_v16 : S1024x1024.Idx → EReal)
      = Cert.ReferenceIdeal.Read.val_main_v10 (F := Ideal) (m ((c : Thread nD τ).loc main_arg2)) (m ((c : Thread nD τ).loc main_arg3)) := by
  dsimp only [V, V0]
  simp only [hostOps0, hostOps0_1, hostOps0_2, hostOps0_3, List.flatten_cons, List.flatten_nil, List.append_nil, List.cons_append, List.nil_append]
  after_results
  rfl

theorem entry_second_matrix (c : Dev nD) :
    (V m c main_v17 : S1024x1024.Idx → EReal)
      = Cert.ReferenceIdeal.Read.val_main_v7 (F := Ideal) (m ((c : Thread nD τ).loc main_arg5)) (m ((c : Thread nD τ).loc main_arg6)) := by
  dsimp only [V, V0]
  simp only [hostOps0, hostOps0_1, hostOps0_2, hostOps0_3, List.flatten_cons, List.flatten_nil, List.append_nil, List.cons_append, List.nil_append]
  after_results
  rfl

theorem entry_first_bias (c : Dev nD) :
    (V m c main_v18 : S1x1024.Idx → EReal)
      = shapeCast S1x1024 (m ((c : Thread nD τ).loc main_arg4) : S1024.Idx → EReal) Gen.shapeCasts_S1024_S1x1024 := by
  dsimp only [V, V0]
  simp only [hostOps0, hostOps0_1, hostOps0_2, hostOps0_3, List.flatten_cons, List.flatten_nil, List.append_nil, List.cons_append, List.nil_append]
  after_results
  rfl

theorem entry_second_bias (c : Dev nD) :
    (V m c main_v19 : S1x1024.Idx → EReal)
      = shapeCast S1x1024 (m ((c : Thread nD τ).loc main_arg7) : S1024.Idx → EReal) Gen.shapeCasts_S1024_S1x1024 := by
  dsimp only [V, V0]
  simp only [hostOps0, hostOps0_1, hostOps0_2, hostOps0_3, List.flatten_cons, List.flatten_nil, List.append_nil, List.cons_append, List.nil_append]
  after_results
  rfl

/-! ## The index maps over the grid -/

/-- Point `t` takes block `(t, 0, 0)` of the objects, of the questions and of the output, block `(0, 0)` of the rest. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

end Cert.KernelIdeal.Operands

end
-- ==== Proof.BodyLayout.lean ====
/-
  The kernel body's non-pointwise operations, each read at an index given by plain coordinates.

  Three matrix products into a zero accumulator are plain sums over the contracted axis.  The remaining operations only
  move data: a cast between `[a, b]` and `[a, 1, b]`, the cast of the `[36, 36, 1024]` pair table to its `[1296, 1024]`
  flattening (row `r` is the pair `(r / 36, r % 36)`, because both arrays are read in row-major order), three
  broadcasts into the pair table (along the first pair axis, along the second, along both), and the sum over the rows
  of the flattened table.
-/
import proofs.«151972_j23081154249002_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.BodyLayout

open Cert.KernelIdeal Cert.KernelIdeal.Gen Cert.KernelIdeal.Facts₀ Idealize.ShloMosaic Idealize.ShloMosaic.ValueIdx

/-! ## The three matrix products -/

theorem proj_rows_lhs0 (i : S36x1024.Idx) (q : dot_S36x2048_S2048x1024_S36x1024_1_0_0_1_n_n.contr.Idx) : (dot_S36x2048_S2048x1024_S36x1024_1_0_0_1_n_n.lhsIdx i q 0).val = (i 0).val := by
  unfold DotDims.lhsIdx
  rw [dif_neg (show ¬(0 : Fin S36x2048.rank) ∈ dot_S36x2048_S2048x1024_S36x1024_1_0_0_1_n_n.lhsBatch by decide), dif_pos (show (0 : Fin S36x2048.rank) ∈ dot_S36x2048_S2048x1024_S36x1024_1_0_0_1_n_n.lhsNonContracting by decide)]
  rfl
theorem proj_rows_rhs1 (i : S36x1024.Idx) (q : dot_S36x2048_S2048x1024_S36x1024_1_0_0_1_n_n.contr.Idx) : (dot_S36x2048_S2048x1024_S36x1024_1_0_0_1_n_n.rhsIdx i q 1).val = (i 1).val := by
  unfold DotDims.rhsIdx
  rw [dif_neg (show ¬(1 : Fin S2048x1024.rank) ∈ dot_S36x2048_S2048x1024_S36x1024_1_0_0_1_n_n.rhsBatch by decide), dif_pos (show (1 : Fin S2048x1024.rank) ∈ dot_S36x2048_S2048x1024_S36x1024_1_0_0_1_n_n.rhsNonContracting by decide)]
  rfl
/-- An object block `[36, 2048]` times a weight block `[2048, 1024]`, into zero, at `(p, c)`: the sum over the 2048 features. -/
theorem proj_rows (l : FVec Ideal S36x2048 .bf16) (r : FVec Ideal S2048x1024 .bf16) (p : Fin 36) (c : Fin 1024) :
    matmul dot_S36x2048_S2048x1024_S36x1024_1_0_0_1_n_n none l r (constant S36x1024 .f32 0x00000000#32) (ix2 p c) = ∑ k : Fin 2048, l (ix2 p k) * r (ix2 k c) := by
  simp only [matmul]
  rw [Ideal.matmul_constant_zero_apply, ← Equiv.sum_comp (contrEquiv1 dot_S36x2048_S2048x1024_S36x1024_1_0_0_1_n_n 2048 rfl rfl).symm]
  refine Finset.sum_congr rfl fun k _ => ?_
  have hk := contrEquiv1_symm_val dot_S36x2048_S2048x1024_S36x1024_1_0_0_1_n_n 2048 rfl rfl k
  have el : dot_S36x2048_S2048x1024_S36x1024_1_0_0_1_n_n.lhsIdx (ix2 p c) ((contrEquiv1 dot_S36x2048_S2048x1024_S36x1024_1_0_0_1_n_n 2048 rfl rfl).symm k) = ix2 p k := funext fun a => Fin.ext (by
    match a with
    | ⟨0, _⟩ => exact proj_rows_lhs0 _ _
    | ⟨1, _⟩ => exact (dot_S36x2048_S2048x1024_S36x1024_1_0_0_1_n_n.lhsIdx_val_of_single rfl _ _).trans hk)
  have er : dot_S36x2048_S2048x1024_S36x1024_1_0_0_1_n_n.rhsIdx (ix2 p c) ((contrEquiv1 dot_S36x2048_S2048x1024_S36x1024_1_0_0_1_n_n 2048 rfl rfl).symm k) = ix2 k c := funext fun a => Fin.ext (by
    match a with
    | ⟨0, _⟩ => exact (dot_S36x2048_S2048x1024_S36x1024_1_0_0_1_n_n.rhsIdx_val_of_single rfl _ _).trans hk
    | ⟨1, _⟩ => exact proj_rows_rhs1 _ _)
  rw [el, er]

theorem proj_question_lhs0 (i : S1x1024.Idx) (q : dot_S1x1024_S1024x1024_S1x1024_1_0_0_1_n_n.contr.Idx) : (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem proj_question_rhs1 (i : S1x1024.Idx) (q : dot_S1x1024_S1024x1024_S1x1024_1_0_0_1_n_n.contr.Idx) : (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl
/-- The question row `[1, 1024]` times its weight block `[1024, 1024]`, into zero, at `(p, c)`: the sum over the 1024 features. -/
theorem proj_question (l : FVec Ideal S1x1024 .bf16) (r : FVec Ideal S1024x1024 .bf16) (p : Fin 1) (c : Fin 1024) :
    matmul dot_S1x1024_S1024x1024_S1x1024_1_0_0_1_n_n none l r (constant S1x1024 .f32 0x00000000#32) (ix2 p c) = ∑ k : Fin 1024, l (ix2 p k) * r (ix2 k c) := by
  simp only [matmul]
  rw [Ideal.matmul_constant_zero_apply, ← Equiv.sum_comp (contrEquiv1 dot_S1x1024_S1024x1024_S1x1024_1_0_0_1_n_n 1024 rfl rfl).symm]
  refine Finset.sum_congr rfl fun k _ => ?_
  have hk := contrEquiv1_symm_val dot_S1x1024_S1024x1024_S1x1024_1_0_0_1_n_n 1024 rfl rfl k
  have el : dot_S1x1024_S1024x1024_S1x1024_1_0_0_1_n_n.lhsIdx (ix2 p c) ((contrEquiv1 dot_S1x1024_S1024x1024_S1x1024_1_0_0_1_n_n 1024 rfl rfl).symm k) = ix2 p k := funext fun a => Fin.ext (by
    match a with
    | ⟨0, _⟩ => exact proj_question_lhs0 _ _
    | ⟨1, _⟩ => exact (dot_S1x1024_S1024x1024_S1x1024_1_0_0_1_n_n.lhsIdx_val_of_single rfl _ _).trans hk)
  have er : dot_S1x1024_S1024x1024_S1x1024_1_0_0_1_n_n.rhsIdx (ix2 p c) ((contrEquiv1 dot_S1x1024_S1024x1024_S1x1024_1_0_0_1_n_n 1024 rfl rfl).symm k) = ix2 k c := funext fun a => Fin.ext (by
    match a with
    | ⟨0, _⟩ => exact (dot_S1x1024_S1024x1024_S1x1024_1_0_0_1_n_n.rhsIdx_val_of_single rfl _ _).trans hk
    | ⟨1, _⟩ => exact proj_question_rhs1 _ _)
  rw [el, er]

theorem second_layer_lhs0 (i : S1296x1024.Idx) (q : dot_S1296x1024_S1024x1024_S1296x1024_1_0_0_1_n_n.contr.Idx) : (dot_S1296x1024_S1024x1024_S1296x1024_1_0_0_1_n_n.lhsIdx i q 0).val = (i 0).val := by
  unfold DotDims.lhsIdx
  rw [dif_neg (show ¬(0 : Fin S1296x1024.rank) ∈ dot_S1296x1024_S1024x1024_S1296x1024_1_0_0_1_n_n.lhsBatch by decide), dif_pos (show (0 : Fin S1296x1024.rank) ∈ dot_S1296x1024_S1024x1024_S1296x1024_1_0_0_1_n_n.lhsNonContracting by decide)]
  rfl
theorem second_layer_rhs1 (i : S1296x1024.Idx) (q : dot_S1296x1024_S1024x1024_S1296x1024_1_0_0_1_n_n.contr.Idx) : (dot_S1296x1024_S1024x1024_S1296x1024_1_0_0_1_n_n.rhsIdx i q 1).val = (i 1).val := by
  unfold DotDims.rhsIdx
  rw [dif_neg (show ¬(1 : Fin S1024x1024.rank) ∈ dot_S1296x1024_S1024x1024_S1296x1024_1_0_0_1_n_n.rhsBatch by decide), dif_pos (show (1 : Fin S1024x1024.rank) ∈ dot_S1296x1024_S1024x1024_S1296x1024_1_0_0_1_n_n.rhsNonContracting by decide)]
  rfl
/-- The flattened hidden table `[1296, 1024]` times the second-layer matrix, into zero, at `(p, c)`: the sum over the 1024 hidden units. -/
theorem second_layer (l : FVec Ideal S1296x1024 .bf16) (r : FVec Ideal S1024x1024 .bf16) (p : Fin 1296) (c : Fin 1024) :
    matmul dot_S1296x1024_S1024x1024_S1296x1024_1_0_0_1_n_n none l r (constant S1296x1024 .f32 0x00000000#32) (ix2 p c) = ∑ k : Fin 1024, l (ix2 p k) * r (ix2 k c) := by
  simp only [matmul]
  rw [Ideal.matmul_constant_zero_apply, ← Equiv.sum_comp (contrEquiv1 dot_S1296x1024_S1024x1024_S1296x1024_1_0_0_1_n_n 1024 rfl rfl).symm]
  refine Finset.sum_congr rfl fun k _ => ?_
  have hk := contrEquiv1_symm_val dot_S1296x1024_S1024x1024_S1296x1024_1_0_0_1_n_n 1024 rfl rfl k
  have el : dot_S1296x1024_S1024x1024_S1296x1024_1_0_0_1_n_n.lhsIdx (ix2 p c) ((contrEquiv1 dot_S1296x1024_S1024x1024_S1296x1024_1_0_0_1_n_n 1024 rfl rfl).symm k) = ix2 p k := funext fun a => Fin.ext (by
    match a with
    | ⟨0, _⟩ => exact second_layer_lhs0 _ _
    | ⟨1, _⟩ => exact (dot_S1296x1024_S1024x1024_S1296x1024_1_0_0_1_n_n.lhsIdx_val_of_single rfl _ _).trans hk)
  have er : dot_S1296x1024_S1024x1024_S1296x1024_1_0_0_1_n_n.rhsIdx (ix2 p c) ((contrEquiv1 dot_S1296x1024_S1024x1024_S1296x1024_1_0_0_1_n_n 1024 rfl rfl).symm k) = ix2 k c := funext fun a => Fin.ext (by
    match a with
    | ⟨0, _⟩ => exact (dot_S1296x1024_S1024x1024_S1296x1024_1_0_0_1_n_n.rhsIdx_val_of_single rfl _ _).trans hk
    | ⟨1, _⟩ => exact second_layer_rhs1 _ _)
  rw [el, er]

/-! ## Casts -/

section Layout
variable {α : Type}

/-- An `[a, b]` array cast to `[a, 1, b]` reads, at `(i, u, j)`, the operand at `(i, j)`. -/
theorem cast_ab_a1b {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The `[36, 36, 1024]` pair table cast to `[1296, 1024]` reads, at `(r, c)`, the table at `(r / 36, r % 36, c)`. -/
theorem cast_pairs_rows (x : (⟨3, ![36, 36, 1024]⟩ : Shape).Idx → α)
    (h : (⟨3, ![36, 36, 1024]⟩ : Shape).ShapeCasts ⟨2, ![1296, 1024]⟩) (r : Fin 1296) (c : Fin 1024) :
    shapeCast ⟨2, ![1296, 1024]⟩ x h (ix2 r c)
      = x (ix3 (⟨r.val / 36, by have := r.isLt; omega⟩ : Fin 36) (⟨r.val % 36, Nat.mod_lt _ (by decide)⟩ : Fin 36) c) :=
  shapeCast_apply x h _ _ (by
    rw [Shape.rowMajor_val_three, Shape.rowMajor_val_two]
    show (r.val / 36 * 36 + r.val % 36) * 1024 + c.val = r.val * 1024 + c.val
    have := Nat.div_add_mod r.val 36
    omega)

/-! ## Broadcasts into the pair table -/

/-- A `[1, 36, 1024]` array broadcast over the FIRST pair axis reads, at `(i, j, c)`, the operand at `(0, j, c)`. -/
theorem bcast_first (x : (⟨3, ![1, 36, 1024]⟩ : Shape).Idx → α) (h : (⟨3, ![1, 36, 1024]⟩ : Shape).Broadcasts ⟨3, ![36, 36, 1024]⟩)
    (i j : Fin 36) (c : Fin 1024) : broadcastTo ⟨3, ![36, 36, 1024]⟩ x h (ix3 i j c) = x (ix3 (0 : Fin 1) j c) := by
  refine broadcastTo_apply x h (ix3 i j c) (ix3 (0 : Fin 1) j c) fun ax => ?_
  match ax with
  | ⟨0, _⟩ => rfl
  | ⟨1, _⟩ => show j.val = if (36 : Nat) = 1 then 0 else j.val; rw [if_neg (by decide)]
  | ⟨2, _⟩ => show c.val = if (1024 : Nat) = 1 then 0 else c.val; rw [if_neg (by decide)]

/-- A `[36, 1, 1024]` array broadcast over the SECOND pair axis reads, at `(i, j, c)`, the operand at `(i, 0, c)`. -/
theorem bcast_second (x : (⟨3, ![36, 1, 1024]⟩ : Shape).Idx → α) (h : (⟨3, ![36, 1, 1024]⟩ : Shape).Broadcasts ⟨3, ![36, 36, 1024]⟩)
    (i j : Fin 36) (c : Fin 1024) : broadcastTo ⟨3, ![36, 36, 1024]⟩ x h (ix3 i j c) = x (ix3 i (0 : Fin 1) c) := by
  refine broadcastTo_apply x h (ix3 i j c) (ix3 i (0 : Fin 1) c) fun ax => ?_
  match ax with
  | ⟨0, _⟩ => show i.val = if (36 : Nat) = 1 then 0 else i.val; rw [if_neg (by decide)]
  | ⟨1, _⟩ => rfl
  | ⟨2, _⟩ => show c.val = if (1024 : Nat) = 1 then 0 else c.val; rw [if_neg (by decide)]

/-- A `[1, 1, 1024]` array broadcast over BOTH pair axes reads, at `(i, j, c)`, the operand at `(0, 0, c)`. -/
theorem bcast_both (x : (⟨3, ![1, 1, 1024]⟩ : Shape).Idx → α) (h : (⟨3, ![1, 1, 1024]⟩ : Shape).Broadcasts ⟨3, ![36, 36, 1024]⟩)
    (i j : Fin 36) (c : Fin 1024) : broadcastTo ⟨3, ![36, 36, 1024]⟩ x h (ix3 i j c) = x (ix3 (0 : Fin 1) (0 : Fin 1) c) := by
  refine broadcastTo_apply x h (ix3 i j c) (ix3 (0 : Fin 1) (0 : Fin 1) c) fun ax => ?_
  match ax with
  | ⟨0, _⟩ => rfl
  | ⟨1, _⟩ => rfl
  | ⟨2, _⟩ => show c.val = if (1024 : Nat) = 1 then 0 else c.val; rw [if_neg (by decide)]

end Layout

/-! ## The sum over the rows of the flattened table -/

/-- The body's `[1296, 1024] → [1024]` sum over the rows, read at column `c`: the sum over the 1296 rows of the entry
    `(r, c)`. (The accumulator word is the zero word, the sum's neutral element.) -/
theorem sum_over_rows (src : FVec Ideal S1296x1024 .f32) (h : S1296x1024.Reduces [0] S1024) (hφ : FKind.Formats .f32)
    (hacc : (0x00000000#32 : BitVec 32) = 0x00000000#32) (c : Fin 1024) :
    multiReduction .add [0] S1024 src 0x00000000#32 h hφ hacc (ix1 c) = ∑ r : Fin 1296, src (ix2 r c) := by
  refine (Ideal.multiReduction_add_single src 0x00000000#32 h hφ hacc (ix1 c)).trans ?_
  refine Finset.sum_congr rfl fun r _ => congrArg src (funext fun a => Fin.ext ?_)
  match a with
  | ⟨0, _⟩ => rfl
  | ⟨1, _⟩ => rfl

end Cert.KernelIdeal.BodyLayout

end
-- ==== Proof.BodyValue.lean ====
/-
  What the kernel body stores, as a function of the blocks it loads.

  The body loads one batch element's objects `x0 : [1, 36, 2048]`, its question `x1 : [1, 1, 1024]`, the three row blocks
  `x2`, `x3`, `x4` of the first-layer matrix, the second-layer matrix `x5` and the two bias rows `x6`, `x7 : [1, 1024]`, and
  stores one row `[1, 1, 1024]`.  Read at column `g`, that row is `PairSum.pooled` of the loaded blocks:
  * the two object projections are plain matrix products, the question projection plus the first bias one row;
  * the hidden table at `(i, j, h)` adds the first projection's row `j`, the second's row `i` and that row, rectified;
  * row `r` of the flattened table is the pair `(r / 36, r % 36)`; the second matrix product and the second bias
    give the pair's output, rectified;
  * the stored value is the sum over the 1296 rows, i.e. over the pairs (`PairSum.sum_rows`).
-/
import proofs.«151972_j23081154249002_1_alg».proof.Proof.BodyLayout
import proofs.«151972_j23081154249002_1_alg».proof.Proof.PairSum

noncomputable section

namespace Cert.KernelIdeal.BodyValue

open Cert.KernelIdeal Cert.KernelIdeal.Gen Cert.KernelIdeal.BodyLayout
open Idealize.ShloMosaic Idealize.ShloMosaic.ValueIdx Cert.PairSum

variable (x0 : FVec Ideal S1x36x2048 .bf16) (x1 : FVec Ideal S1x1x1024 .bf16) (x2 x3 : FVec Ideal S2048x1024 .bf16)
  (x4 x5 : FVec Ideal S1024x1024 .bf16) (x6 x7 : FVec Ideal S1x1024 .f32)

/-! ## The stages, named -/

/-- An object projection: the objects `[36, 2048]` times one weight block. -/
def objProj (w : FVec Ideal S2048x1024 .bf16) : FVec Ideal S36x1024 .f32 :=
  matmul dot_S36x2048_S2048x1024_S36x1024_1_0_0_1_n_n none (shapeCast S36x2048 x0 shapeCasts_S1x36x2048_S36x2048)
    (shapeCast S2048x1024 w shapeCasts_S2048x1024_S2048x1024) (constant S36x1024 .f32 0x00000000#32)

/-- The question projection plus the first bias: one row. -/
def questionRow : FVec Ideal S1x1024 .f32 :=
  addf (matmul dot_S1x1024_S1024x1024_S1x1024_1_0_0_1_n_n none (shapeCast S1x1024 x1 shapeCasts_S1x1x1024_S1x1024)
      (shapeCast S1024x1024 x4 shapeCasts_S1024x1024_S1024x1024) (constant S1x1024 .f32 0x00000000#32))
    (shapeCast S1x1024 x6 shapeCasts_S1x1024_S1x1024)

/-- The rectified hidden table `[36, 36, 1024]`. -/
def hiddenTable : FVec Ideal S36x36x1024 .f32 :=
  maximumf
    (addf
      (addf (broadcastTo S36x36x1024 (shapeCast S1x36x1024 (objProj x0 x2) shapeCasts_S36x1024_S1x36x1024) broadcasts_S1x36x1024_S36x36x1024)
        (broadcastTo S36x36x1024 (shapeCast S36x1x1024 (objProj x0 x3) shapeCasts_S36x1024_S36x1x1024) broadcasts_S36x1x1024_S36x36x1024))
      (broadcastTo S36x36x1024 (shapeCast S1x1x1024 (questionRow x1 x4 x6) shapeCasts_S1x1024_S1x1x1024) broadcasts_S1x1x1024_S36x36x1024))
    (broadcast S36x36x1024 (Scalar.ofBits .f32 0x00000000#32))

/-- The body's first payload — the second layer before its rectifier, `[1296, 1024]` — is these stages composed. -/
theorem pay2_eq : k0_pay2 (F := Ideal) x0 x1 x2 x3 x4 x5 x6 x7
    = addf (matmul dot_S1296x1024_S1024x1024_S1296x1024_1_0_0_1_n_n none
          (truncf .bf16 (shapeCast S1296x1024 (hiddenTable x0 x1 x2 x3 x4 x6) shapeCasts_S36x36x1024_S1296x1024) bitsLt_bf16_f32)
          (shapeCast S1024x1024 x5 shapeCasts_S1024x1024_S1024x1024) (constant S1296x1024 .f32 0x00000000#32))
        (broadcastTo S1296x1024 (shapeCast S1x1024 x7 shapeCasts_S1x1024_S1x1024) broadcasts_S1x1024_S1296x1024) := rfl

/-- The body's second payload — what it stores — is the rectifier, the sum over the rows and two casts. -/
theorem pay1_eq (v : FVec Ideal S1296x1024 .f32) (z : Ideal .f32) : k0_pay1 (F := Ideal) v z
    = shapeCast S1x1x1024 (shapeCast S1x1024
        (multiReduction .add [0] S1024 (maximumf v (broadcast S1296x1024 z)) 0x00000000#32 reduces_S1296x1024_S1024 (.inl rfl) rfl)
        shapeCasts_S1024_S1x1024) shapeCasts_S1x1024_S1x1x1024 := rfl

/-! ## The stages at an index -/

theorem objProj_apply (w : FVec Ideal S2048x1024 .bf16) (j : Fin 36) (h : Fin 1024) :
    objProj x0 w (ix2 j h) = ∑ k : Fin 2048, x0 (ix3 (0 : Fin 1) j k) * w (ix2 k h) := by
  unfold objProj
  refine (proj_rows _ _ j h).trans (Finset.sum_congr rfl fun k _ => ?_)
  refine congrArg₂ (· * ·) ?_ ?_
  · exact shapeCast_1ab_ab_apply x0 _ j k
  · exact congrFun (shapeCast_self w _) _

theorem questionRow_apply (h : Fin 1024) :
    questionRow x1 x4 x6 (ix2 (0 : Fin 1) h)
      = (∑ k : Fin 1024, x1 (ix3 (0 : Fin 1) (0 : Fin 1) k) * x4 (ix2 k h)) + x6 (ix2 (0 : Fin 1) h) := by
  unfold questionRow
  refine (addf_apply _ _ _).trans (congrArg₂ (· + ·) ?_ ?_)
  · refine (proj_question _ _ 0 h).trans (Finset.sum_congr rfl fun k _ => ?_)
    refine congrArg₂ (· * ·) ?_ ?_
    · exact shapeCast_1ab_ab_apply x1 _ 0 k
    · exact congrFun (shapeCast_self x4 _) _
  · exact congrFun (shapeCast_self x6 _) _

/-- The hidden table at `(i, j, h)` is `PairSum.hid` of the loaded blocks. -/
theorem hiddenTable_apply (i j : Fin 36) (h : Fin 1024) :
    hiddenTable x0 x1 x2 x3 x4 x6 (ix3 i j h)
      = hid (fun j k => x0 (ix3 (0 : Fin 1) j k)) (fun k => x1 (ix3 (0 : Fin 1) (0 : Fin 1) k)) (fun k h => x2 (ix2 k h))
          (fun k h => x3 (ix2 k h)) (fun k h => x4 (ix2 k h)) (fun h => x6 (ix2 (0 : Fin 1) h)) i j h := by
  unfold hiddenTable hid
  refine (maximumf_apply _ _ _).trans (congrArg₂ max ?_ rfl)
  refine (addf_apply _ _ _).trans (congrArg₂ (· + ·) ?_ ?_)
  · refine (addf_apply _ _ _).trans (congrArg₂ (· + ·) ?_ ?_)
    · exact (bcast_first _ _ i j h).trans ((shapeCast_ab_1ab_apply _ _ 0 j h).trans (objProj_apply x0 x2 j h))
    · exact (bcast_second _ _ i j h).trans ((cast_ab_a1b _ _ i 0 h).trans (objProj_apply x0 x3 i h))
  · exact (bcast_both _ _ i j h).trans ((shapeCast_ab_1ab_apply _ _ 0 0 h).trans (questionRow_apply x1 x4 x6 h))

/-- The first payload at `(r, g)`: the pair `(r / 36, r % 36)`'s second-layer output before its rectifier. -/
theorem pay2_apply (r : Fin 1296) (g : Fin 1024) :
    k0_pay2 (F := Ideal) x0 x1 x2 x3 x4 x5 x6 x7 (ix2 r g)
      = (∑ h : Fin 1024, hid (fun j k => x0 (ix3 (0 : Fin 1) j k)) (fun k => x1 (ix3 (0 : Fin 1) (0 : Fin 1) k)) (fun k h => x2 (ix2 k h))
            (fun k h => x3 (ix2 k h)) (fun k h => x4 (ix2 k h)) (fun h => x6 (ix2 (0 : Fin 1) h))
            ⟨r.val / 36, by have := r.isLt; omega⟩ ⟨r.val % 36, Nat.mod_lt _ (by decide)⟩ h * x5 (ix2 h g))
        + x7 (ix2 (0 : Fin 1) g) := by
  rw [pay2_eq]
  refine (addf_apply _ _ _).trans (congrArg₂ (· + ·) ?_ ?_)
  · refine (second_layer _ _ r g).trans (Finset.sum_congr rfl fun h _ => ?_)
    refine congrArg₂ (· * ·) ?_ ?_
    · exact (cast_pairs_rows _ _ r h).trans (hiddenTable_apply x0 x1 x2 x3 x4 x6 _ _ h)
    · exact congrFun (shapeCast_self x5 _) _
  · exact (broadcastTo_1b_ab_apply _ _ r g).trans (congrFun (shapeCast_self x7 _) _)

/-- THE STORED ROW at column `g` is `PairSum.pooled` of the loaded blocks. -/
theorem stored_apply (g : Fin 1024) :
    k0_pay1 (F := Ideal) (k0_pay2 (F := Ideal) x0 x1 x2 x3 x4 x5 x6 x7) (Scalar.ofBits .f32 0x00000000#32) (ix3 (0 : Fin 1) (0 : Fin 1) g)
      = pooled (fun j k => x0 (ix3 (0 : Fin 1) j k)) (fun k => x1 (ix3 (0 : Fin 1) (0 : Fin 1) k)) (fun k h => x2 (ix2 k h))
          (fun k h => x3 (ix2 k h)) (fun k h => x4 (ix2 k h)) (fun h g => x5 (ix2 h g)) (fun h => x6 (ix2 (0 : Fin 1) h))
          (fun g => x7 (ix2 (0 : Fin 1) g)) g := by
  rw [pay1_eq]
  refine (shapeCast_ab_1ab_apply _ _ 0 0 g).trans ((shapeCast_a_1a_apply _ _ 0 g).trans ((sum_over_rows _ _ _ _ g).trans ?_))
  unfold pooled
  refine Eq.trans (Finset.sum_congr rfl fun r _ => ?_) (sum_rows fun i j => pairOut _ _ _ _ _ _ _ _ i j g)
  unfold pairOut
  refine (maximumf_apply _ _ _).trans (congrArg₂ max ?_ rfl)
  exact pay2_apply x0 x1 x2 x3 x4 x5 x6 x7 r g

end Cert.KernelIdeal.BodyValue

end
-- ==== Proof.KernelSum.lean ====
/-
  The kernel's result array is `PairSum.G`.

  Grid point `t` works on batch element `t`: its object block is rows `(t, ·, ·)` of the objects, its question block row
  `t` of the questions, and every other window is the whole of its array.  With the arrays at region entry known
  (`Operands`) and the stored row known as `PairSum.pooled` of the loaded blocks (`BodyValue.stored_apply`), point `t`
  writes back row `t` of `PairSum.G`; the 32 rows tile the output array `[32, 1, 1024]`, so after the region it holds
  `G` throughout; the reshape after the region drops the unit axis.
-/
import proofs.«151972_j23081154249002_1_alg».proof.Proof.Operands
import proofs.«151972_j23081154249002_1_alg».proof.Proof.BodyValue
import proofs.«151972_j23081154249002_1_alg».proof.Proof.PairSum
import Idealize.ShloMosaic.Lib.Pipeline.Value
import Idealize.ShloMosaic.Lib.StableHlo.Run
import Idealize.ShloMosaic.Lib.ValueLayout

noncomputable section

namespace Cert.KernelIdeal.PairValue

open Cert.KernelIdeal Cert.KernelIdeal.Gen Cert.KernelIdeal.Operands Cert.KernelIdeal.BodyValue Cert.KernelIdeal.BodyLayout
open Idealize.ShloMosaic Idealize.ShloMosaic.TcCoe Idealize.SL.Sem Idealize.ShloMosaic.ValueIdx Idealize.ShloMosaic.StableHlo Cert.PairSum
open Idealize.ShloMosaic.Pipeline (Dat)
open Cert.ReferenceIdeal.Read (val_main_v7 val_main_v8 val_main_v9 val_main_v10)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Grid point `t` as the batch element it works on. -/
def batch (t : Fin cfg0.N) : Fin 32 := ⟨t.val, lt_of_lt_of_eq t.isLt N_0⟩

/-- The result `[32, 1024]`: `PairSum.G` of the arguments as launched, the weights normalised and cut as both programs do. -/
def result (c : Dev nD) : S32x1024.Idx → EReal :=
  G (m ((c : Thread nD τ).loc main_arg0)) (m ((c : Thread nD τ).loc main_arg1))
    (val_main_v8 (F := Ideal) (m ((c : Thread nD τ).loc main_arg2)) (m ((c : Thread nD τ).loc main_arg3)))
    (val_main_v9 (F := Ideal) (m ((c : Thread nD τ).loc main_arg2)) (m ((c : Thread nD τ).loc main_arg3)))
    (val_main_v10 (F := Ideal) (m ((c : Thread nD τ).loc main_arg2)) (m ((c : Thread nD τ).loc main_arg3)))
    (val_main_v7 (F := Ideal) (m ((c : Thread nD τ).loc main_arg5)) (m ((c : Thread nD τ).loc main_arg6)))
    (m ((c : Thread nD τ).loc main_arg4)) (m ((c : Thread nD τ).loc main_arg7))

/-- The region's output array `[32, 1, 1024]`: the result with a unit axis in the middle. -/
def outArr (c : Dev nD) : S32x1x1024.Idx → EReal := fun i =>
  result m c (ix2 (⟨(i 0).val, (i 0).isLt⟩ : Fin 32) (⟨(i 2).val, (i 2).isLt⟩ : Fin 1024))

/-! ## Each window's block at point `t`, read off its array -/

/-- The object block at `(0, j, k)` is the objects' array at `(t, j, k)`. -/
theorem blk_objects (c : Dev nD) (t : Fin cfg0.N) (j : Fin 36) (k : Fin 2048) :
    (iblk m c 0 t : S1x36x2048.Idx → EReal) (ix3 (0 : Fin 1) j k) = (V m c main_v11 : S32x36x2048.Idx → EReal) (ix3 (batch t) j k) := by
  have hf := idx_facts t
  unfold iblk
  rw [View.read_apply]
  show (V m c main_v11 : S32x36x2048.Idx → EReal) _ = _
  refine congrArg _ (funext fun a => Fin.ext ?_)
  match a with
  | ⟨0, _⟩ => show win0_0.index t (0 : Fin 3) * 1 + 1 * 0 = t.val; rw [hf.1]; omega
  | ⟨1, _⟩ => show win0_0.index t (1 : Fin 3) * 36 + 1 * j.val = j.val; rw [hf.2.1]; omega
  | ⟨2, _⟩ => show win0_0.index t (2 : Fin 3) * 2048 + 1 * k.val = k.val; rw [hf.2.2.1]; omega

/-- The question block at `(0, 0, k)` is the questions' array at `(t, 0, k)`. -/
theorem blk_questions (c : Dev nD) (t : Fin cfg0.N) (k : Fin 1024) :
    (iblk m c 1 t : S1x1x1024.Idx → EReal) (ix3 (0 : Fin 1) (0 : Fin 1) k) = (V m c main_v13 : S32x1x1024.Idx → EReal) (ix3 (batch t) (0 : Fin 1) k) := by
  have hf := idx_facts t
  unfold iblk
  rw [View.read_apply]
  show (V m c main_v13 : S32x1x1024.Idx → EReal) _ = _
  refine congrArg _ (funext fun a => Fin.ext ?_)
  match a with
  | ⟨0, _⟩ => show win0_1.index t (0 : Fin 3) * 1 + 1 * 0 = t.val; rw [hf.2.2.2.1]; omega
  | ⟨1, _⟩ => show win0_1.index t (1 : Fin 3) * 1 + 1 * 0 = 0; rw [hf.2.2.2.2.1]
  | ⟨2, _⟩ => show win0_1.index t (2 : Fin 3) * 1024 + 1 * k.val = k.val; rw [hf.2.2.2.2.2.1]; omega

/-- The first weight window's block is its whole array. -/
theorem blk_first_block (c : Dev nD) (t : Fin cfg0.N) (k : Fin 2048) (h : Fin 1024) :
    (iblk m c 2 t : S2048x1024.Idx → EReal) (ix2 k h) = (V m c main_v14 : S2048x1024.Idx → EReal) (ix2 k h) := by
  have hf := idx_facts t
  unfold iblk
  rw [View.read_apply]
  show (V m c main_v14 : S2048x1024.Idx → EReal) _ = _
  refine congrArg _ (funext fun a => Fin.ext ?_)
  match a with
  | ⟨0, _⟩ => show win0_2.index t (0 : Fin 2) * 2048 + 1 * k.val = k.val; rw [hf.2.2.2.2.2.2.1]; omega
  | ⟨1, _⟩ => show win0_2.index t (1 : Fin 2) * 1024 + 1 * h.val = h.val; rw [hf.2.2.2.2.2.2.2.1]; omega

/-- The second weight window's block is its whole array. -/
theorem blk_second_block (c : Dev nD) (t : Fin cfg0.N) (k : Fin 2048) (h : Fin 1024) :
    (iblk m c 3 t : S2048x1024.Idx → EReal) (ix2 k h) = (V m c main_v15 : S2048x1024.Idx → EReal) (ix2 k h) := by
  have hf := idx_facts t
  unfold iblk
  rw [View.read_apply]
  show (V m c main_v15 : S2048x1024.Idx → EReal) _ = _
  refine congrArg _ (funext fun a => Fin.ext ?_)
  match a with
  | ⟨0, _⟩ => show win0_3.index t (0 : Fin 2) * 2048 + 1 * k.val = k.val; rw [hf.2.2.2.2.2.2.2.2.1]; omega
  | ⟨1, _⟩ => show win0_3.index t (1 : Fin 2) * 1024 + 1 * h.val = h.val; rw [hf.2.2.2.2.2.2.2.2.2.1]; omega

/-- The third weight window's block is its whole array. -/
theorem blk_third_block (c : Dev nD) (t : Fin cfg0.N) (k : Fin 1024) (h : Fin 1024) :
    (iblk m c 4 t : S1024x1024.Idx → EReal) (ix2 k h) = (V m c main_v16 : S1024x1024.Idx → EReal) (ix2 k h) := by
  have hf := idx_facts t
  unfold iblk
  rw [View.read_apply]
  show (V m c main_v16 : S1024x1024.Idx → EReal) _ = _
  refine congrArg _ (funext fun a => Fin.ext ?_)
  match a with
  | ⟨0, _⟩ => show win0_4.index t (0 : Fin 2) * 1024 + 1 * k.val = k.val; rw [hf.2.2.2.2.2.2.2.2.2.2.1]; omega
  | ⟨1, _⟩ => show win0_4.index t (1 : Fin 2) * 1024 + 1 * h.val = h.val; rw [hf.2.2.2.2.2.2.2.2.2.2.2.1]; omega

/-- The second-layer matrix's block is its whole array. -/
theorem blk_second_matrix (c : Dev nD) (t : Fin cfg0.N) (k : Fin 1024) (h : Fin 1024) :
    (iblk m c 5 t : S1024x1024.Idx → EReal) (ix2 k h) = (V m c main_v17 : S1024x1024.Idx → EReal) (ix2 k h) := by
  have hf := idx_facts t
  unfold iblk
  rw [View.read_apply]
  show (V m c main_v17 : S1024x1024.Idx → EReal) _ = _
  refine congrArg _ (funext fun a => Fin.ext ?_)
  match a with
  | ⟨0, _⟩ => show win0_5.index t (0 : Fin 2) * 1024 + 1 * k.val = k.val; rw [hf.2.2.2.2.2.2.2.2.2.2.2.2.1]; omega
  | ⟨1, _⟩ => show win0_5.index t (1 : Fin 2) * 1024 + 1 * h.val = h.val; rw [hf.2.2.2.2.2.2.2.2.2.2.2.2.2.1]; omega

/-- The first bias row's block is its whole array. -/
theorem blk_first_bias (c : Dev nD) (t : Fin cfg0.N) (h : Fin 1024) :
    (iblk m c 6 t : S1x1024.Idx → EReal) (ix2 (0 : Fin 1) h) = (V m c main_v18 : S1x1024.Idx → EReal) (ix2 (0 : Fin 1) h) := by
  have hf := idx_facts t
  unfold iblk
  rw [View.read_apply]
  show (V m c main_v18 : S1x1024.Idx → EReal) _ = _
  refine congrArg _ (funext fun a => Fin.ext ?_)
  match a with
  | ⟨0, _⟩ => show win0_6.index t (0 : Fin 2) * 1 + 1 * 0 = 0; rw [hf.2.2.2.2.2.2.2.2.2.2.2.2.2.2.1]
  | ⟨1, _⟩ => show win0_6.index t (1 : Fin 2) * 1024 + 1 * h.val = h.val; rw [hf.2.2.2.2.2.2.2.2.2.2.2.2.2.2.2.1]; omega

/-- The second bias row's block is its whole array. -/
theorem blk_second_bias (c : Dev nD) (t : Fin cfg0.N) (h : Fin 1024) :
    (iblk m c 7 t : S1x1024.Idx → EReal) (ix2 (0 : Fin 1) h) = (V m c main_v19 : S1x1024.Idx → EReal) (ix2 (0 : Fin 1) h) := by
  have hf := idx_facts t
  unfold iblk
  rw [View.read_apply]
  show (V m c main_v19 : S1x1024.Idx → EReal) _ = _
  refine congrArg _ (funext fun a => Fin.ext ?_)
  match a with
  | ⟨0, _⟩ => show win0_7.index t (0 : Fin 2) * 1 + 1 * 0 = 0; rw [hf.2.2.2.2.2.2.2.2.2.2.2.2.2.2.2.2.1]
  | ⟨1, _⟩ => show win0_7.index t (1 : Fin 2) * 1024 + 1 * h.val = h.val; rw [hf.2.2.2.2.2.2.2.2.2.2.2.2.2.2.2.2.2.1]; omega

/-! ## What point `t` writes back -/

/-- `PairSum.pooled` takes equal inputs to equal results. -/
theorem pooled_congr {xv xv' : Fin 36 → Fin 2048 → EReal} {xq xq' : Fin 1024 → EReal} {wa wa' wb wb' : Fin 2048 → Fin 1024 → EReal}
    {wc wc' w2 w2' : Fin 1024 → Fin 1024 → EReal} {c1 c1' c2 c2' : Fin 1024 → EReal} (g : Fin 1024)
    (h0 : xv = xv') (h1 : xq = xq') (h2 : wa = wa') (h3 : wb = wb') (h4 : wc = wc') (h5 : w2 = w2') (h6 : c1 = c1') (h7 : c2 = c2') :
    pooled xv xq wa wb wc w2 c1 c2 g = pooled xv' xq' wa' wb' wc' w2' c1' c2' g := by
  subst h0 h1 h2 h3 h4 h5 h6 h7; rfl

/-- An `[a, 1, b]` array cast to `[a, b]` reads, at `(i, j)`, the operand at `(i, 0, j)`. -/
theorem cast_a1b_ab {α : Type} {a b : ℕ} (x : (⟨3, ![a, 1, b]⟩ : Shape).Idx → α) (h : (⟨3, ![a, 1, b]⟩ : Shape).ShapeCasts ⟨2, ![a, b]⟩)
    (i : Fin a) (j : Fin b) : shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The row the body stores at point `t`, at column `g`, is the result at `(t, g)`. -/
theorem stored_row (c : Dev nD) (t : Fin cfg0.N) (g : Fin 1024) :
    (out0_8 (F := Ideal) (iblk m c 0 t) (iblk m c 1 t) (iblk m c 2 t) (iblk m c 3 t) (iblk m c 4 t) (iblk m c 5 t) (iblk m c 6 t) (iblk m c 7 t) : S1x1x1024.Idx → EReal) (ix3 (0 : Fin 1) (0 : Fin 1) g)
      = result m c (ix2 (batch t) g) := by
  unfold out0_8
  rw [View.canon_unit_zero hz3]
  simp only [View.ld_unit_zero (S := S1x36x2048) hz3, View.ld_unit_zero (S := S1x1x1024) hz3, View.ld_unit_zero (S := S2048x1024) hz2,
    View.ld_unit_zero (S := S1024x1024) hz2, View.ld_unit_zero (S := S1x1024) hz2]
  refine (stored_apply (iblk m c 0 t) (iblk m c 1 t) (iblk m c 2 t) (iblk m c 3 t) (iblk m c 4 t) (iblk m c 5 t) (iblk m c 6 t) (iblk m c 7 t) g).trans ?_
  unfold result G
  refine pooled_congr g ?_ ?_ ?_ ?_ ?_ ?_ ?_ ?_
  · exact funext fun j => funext fun k => (blk_objects m c t j k).trans (congrFun (entry_objects m c) _)
  · exact funext fun k => (blk_questions m c t k).trans ((congrFun (entry_questions m c) _).trans (cast_ab_a1b _ _ (batch t) 0 k))
  · exact funext fun k => funext fun h => (blk_first_block m c t k h).trans (congrFun (entry_first_block m c) _)
  · exact funext fun k => funext fun h => (blk_second_block m c t k h).trans (congrFun (entry_second_block m c) _)
  · exact funext fun k => funext fun h => (blk_third_block m c t k h).trans (congrFun (entry_third_block m c) _)
  · exact funext fun k => funext fun h => (blk_second_matrix m c t k h).trans (congrFun (entry_second_matrix m c) _)
  · exact funext fun h => (blk_first_bias m c t h).trans ((congrFun (entry_first_bias m c) _).trans (shapeCast_a_1a_apply _ _ 0 h))
  · exact funext fun h => (blk_second_bias m c t h).trans ((congrFun (entry_second_bias m c) _).trans (shapeCast_a_1a_apply _ _ 0 h))

/-- WHAT POINT `t` WRITES BACK is block `t` of the output array's function. -/
theorem flushed_eq (c : Dev nD) (t : Fin cfg0.N) :
    (dats m 0 c).flushed 8 t = ((cfg0.win 8).blk t).view.read (Elt Ideal) (outArr m c) := by
  have hf := idx_facts t
  show (cfg0.win 8).cut (grid0.coords t) ((dats m 0 c).after 8 t) = _
  rw [after0_8]
  funext y
  rw [View.read_apply]
  show (out0_8 (F := Ideal) (iblk m c 0 t) (iblk m c 1 t) (iblk m c 2 t) (iblk m c 3 t) (iblk m c 4 t) (iblk m c 5 t) (iblk m c 6 t) (iblk m c 7 t) : S1x1x1024.Idx → EReal) y = outArr m c (((cfg0.win 8).blk t).view.emb y)
  have hy0 : (y 0).val < 1 := (y 0).isLt
  have hy1 : (y 1).val < 1 := (y 1).isLt
  have hy2 : (y 2).val < 1024 := (y 2).isLt
  obtain ⟨g, rfl⟩ : ∃ g : Fin 1024, y = ix3 (0 : Fin 1) (0 : Fin 1) g := ⟨⟨(y 2).val, hy2⟩, funext fun a => Fin.ext (by
    match a with
    | ⟨0, _⟩ => show (y 0).val = 0; omega
    | ⟨1, _⟩ => show (y 1).val = 0; omega
    | ⟨2, _⟩ => rfl)⟩
  rw [stored_row]
  unfold outArr
  refine congrArg (result m c) (funext fun a => Fin.ext ?_)
  match a with
  | ⟨0, _⟩ => show t.val = win0_8.index t (0 : Fin 3) * 1 + 1 * 0; rw [hf.2.2.2.2.2.2.2.2.2.2.2.2.2.2.2.2.2.2.1]; omega
  | ⟨1, _⟩ => show g.val = win0_8.index t (2 : Fin 3) * 1024 + 1 * g.val; rw [hf.2.2.2.2.2.2.2.2.2.2.2.2.2.2.2.2.2.2.2.2]; omega

/-! ## The 32 rows tile the output array -/

/-- An index of the output array is in point `t`'s block iff each coordinate is in the block's range on its axis. -/
theorem mem_blk (t : Fin cfg0.N) (i : S32x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v20).slice (win0_8.rect t)).set ↔ _
  rw [View.set_slice_whole, Rect.mem_set_unit]
  exact Iff.rfl

/-- Every index `(b, 0, g)` of the output array is in the block of point `b`. -/
theorem cover (i : S32x1x1024.Idx) : ∃ t : Fin cfg0.N, (cfg0.win 8).flush t = true ∧ i ∈ ((cfg0.win 8).blk t).view.set := by
  have h0 : (i 0).val < 32 := (i 0).isLt
  have h1 : (i 1).val < 1 := (i 1).isLt
  have h2 : (i 2).val < 1024 := (i 2).isLt
  have hN : cfg0.N = 32 := N_0
  refine ⟨⟨(i 0).val, by rw [hN]; exact h0⟩, flush0_8 _, ?_⟩
  have hf := idx_facts ⟨(i 0).val, by rw [hN]; exact h0⟩
  rw [mem_blk]
  intro a
  match a with
  | ⟨0, _⟩ =>
    show win0_8.index _ (0 : Fin 3) * 1 ≤ (i 0).val ∧ (i 0).val < win0_8.index _ (0 : Fin 3) * 1 + 1
    rw [hf.2.2.2.2.2.2.2.2.2.2.2.2.2.2.2.2.2.2.1]; show (i 0).val * 1 ≤ (i 0).val ∧ (i 0).val < (i 0).val * 1 + 1; omega
  | ⟨1, _⟩ =>
    show win0_8.index _ (1 : Fin 3) * 1 ≤ (i 1).val ∧ (i 1).val < win0_8.index _ (1 : Fin 3) * 1 + 1
    rw [hf.2.2.2.2.2.2.2.2.2.2.2.2.2.2.2.2.2.2.2.1]; omega
  | ⟨2, _⟩ =>
    show win0_8.index _ (2 : Fin 3) * 1024 ≤ (i 2).val ∧ (i 2).val < win0_8.index _ (2 : Fin 3) * 1024 + 1024
    rw [hf.2.2.2.2.2.2.2.2.2.2.2.2.2.2.2.2.2.2.2.2]; omega

/-- So after the region the output array holds the result at every index. -/
theorem final (c : Dev nD) : (dats m 0 c).arrAt 8 cfg0.N = outArr m c :=
  (dats m 0 c).arrAt_eq_of_cover 8 (outArr m c) (fun t _ => flushed_eq m c t) cover

/-! ## The reshape after the region, and the run -/

/-- @main's result — the output array with its unit axis dropped — is `result`. -/
theorem tail_eq (c : Dev nD) : Pipeline.afterTail₀ cfgs (dats m) 0 (V0 m) [hostOps1] c main_v21 = result m c := by
  unfold Pipeline.afterTail₀
  show StableHlo.after hostOps1 _ (Proc.devRef .tc main_v21) = _
  after_results
  rw [show Pipeline.withArrays (cfgs 0).spec c (V0 m c) (fun w => (dats m 0 c).arrAt w (cfgs 0).N) (Proc.devRef .tc main_v20)
      = (dats m 0 c).arrAt 8 cfg0.N from Pipeline.withArrays_arr spec0 launch0.win.arr_inj c _ _ 8, final]
  funext o
  obtain ⟨b, g, rfl⟩ : ∃ (b : Fin 32) (g : Fin 1024), o = ix2 b g := ⟨o 0, o 1, eq_ix2 o⟩
  exact (cast_a1b_ab (outArr m c) _ b g).trans rfl

/-- The kernel's run, read: @main's result at `result`, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.PairValue

end
-- ==== Proof.lean ====
/-
  The kernel and its reference compute one function on the extended reals.

  Both programs first normalise the two weight matrices (each times its gain over its Frobenius norm) and cut the first
  into three row blocks; from there on, for batch element `b` and output column `g`, both compute

      Σ over ordered pairs (i, j) of 36 objects of
        max ((Σ_h max (((v[b,j]·Wa)[h] + (v[b,i]·Wb)[h]) + ((q[b]·Wc)[h] + b1[h])) 0 · W2[h, g]) + b2[g]) 0

  (`PairSum.G`).  The kernel does it one batch element per grid point, on a flattened `[1296, 1024]` pair table summed
  over its rows; the reference on a `[32, 36, 36, 1024]` table summed over the two pair axes, adding the question term
  and the bias one after the other.  `KernelSum.run` reads the kernel's result array as `G`, `ReferenceSum.result_eq` the
  reference's; their weight arguments are the same terms of the launched arrays, so once the two memories agree on the
  arguments the two results are equal by reflexivity.  No finiteness of the inputs is needed: the only laws used are
  associativity of addition and re-indexing of finite sums.  The changes of float format are the identity on the extended
  reals, and the ideal pass rewrote nothing, so the kernel's idealization is its own text.

  The three frames: the kernel's and its idealization's are the generated ones; the reference's is its generated run
  with the result dropped.
-/
import proofs.«151972_j23081154249002_1_alg».proof.Defs
import proofs.«151972_j23081154249002_1_alg».proof.Proof.Gen.Kernel
import proofs.«151972_j23081154249002_1_alg».proof.Proof.Gen.Kernel.Skeleton
import proofs.«151972_j23081154249002_1_alg».proof.Proof.Gen.Kernel.Launch
import proofs.«151972_j23081154249002_1_alg».proof.Proof.Gen.Kernel.Points
import proofs.«151972_j23081154249002_1_alg».proof.Proof.Gen.Kernel.Frame
import proofs.«151972_j23081154249002_1_alg».proof.Proof.Gen.KernelIdeal
import proofs.«151972_j23081154249002_1_alg».proof.Proof.Gen.KernelIdeal.Skeleton
import proofs.«151972_j23081154249002_1_alg».proof.Proof.Gen.KernelIdeal.Launch
import proofs.«151972_j23081154249002_1_alg».proof.Proof.Gen.KernelIdeal.Points
import proofs.«151972_j23081154249002_1_alg».proof.Proof.Gen.KernelIdeal.Frame
import proofs.«151972_j23081154249002_1_alg».proof.Proof.Gen.ReferenceIdeal
import proofs.«151972_j23081154249002_1_alg».proof.Proof.Gen.Pre_finite_inputs
import proofs.«151972_j23081154249002_1_alg».proof.Proof.Gen.ReferenceIdeal.Run
import proofs.«151972_j23081154249002_1_alg».proof.Proof.Gen.ReferenceIdeal.Read
import proofs.«151972_j23081154249002_1_alg».proof.Proof.ReferenceSum
import proofs.«151972_j23081154249002_1_alg».proof.Proof.KernelSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- The kernel's result array ends at `PairSum.G` of its arguments, the reference's at `PairSum.G` of its own; the
    memories agree on the arguments. -/
theorem algebraic : Cert.algebraic_KernelIdeal_ReferenceIdeal := by
  intro m ρ m' ρ' _ hagree
  refine ⟨fun c => Cert.KernelIdeal.PairValue.result m c, Cert.KernelIdeal.PairValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v31_eq, Cert.ReferenceIdeal.PairValue.result_eq, a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
